-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S1 : Shape := ⟨1, ![1]⟩
abbrev S1x1 : Shape := ⟨2, ![1, 1]⟩
abbrev S2000x512 : Shape := ⟨2, ![2000, 512]⟩
abbrev S2000x64 : Shape := ⟨2, ![2000, 64]⟩
abbrev S2000x16 : Shape := ⟨2, ![2000, 16]⟩

abbrev nBuf : Space → Nat
  | .hbm => 109
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x16, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x16, .f32⟩
  | .hbm, ⟨75, _⟩ => ⟨S1700000x1, .f32⟩
  | .hbm, ⟨76, _⟩ => ⟨S1700000x16, .f32⟩
  | .hbm, ⟨77, _⟩ => ⟨S1700000x16, .f32⟩
  | .hbm, ⟨78, _⟩ => ⟨S_, .f32⟩
  | .hbm, ⟨79, _⟩ => ⟨S100000x16, .f32⟩
  | .hbm, ⟨80, _⟩ => ⟨S1700000x1, .i32⟩
  | .hbm, ⟨81, _⟩ => ⟨S100000x16, .f32⟩
  | .hbm, ⟨82, _⟩ => ⟨S1x16, .f32⟩
  | .hbm, ⟨83, _⟩ => ⟨S100000x16, .f32⟩
  | .hbm, ⟨84, _⟩ => ⟨S100000x16, .f32⟩
  | .hbm, ⟨85, _⟩ => ⟨S_, .f32⟩
  | .hbm, ⟨86, _⟩ => ⟨S16, .f32⟩
  | .hbm, ⟨87, _⟩ => ⟨S1x16, .f32⟩
  | .hbm, ⟨88, _⟩ => ⟨S_, .f32⟩
  | .hbm, ⟨89, _⟩ => ⟨S1x16, .f32⟩
  | .hbm, ⟨90, _⟩ => ⟨S1x16, .f32⟩
  | .hbm, ⟨91, _⟩ => ⟨S_, .f32⟩
  | .hbm, ⟨92, _⟩ => ⟨S1x16, .f32⟩
  | .hbm, ⟨93, _⟩ => ⟨S1x16, .f32⟩
  | .hbm, ⟨94, _⟩ => ⟨S_, .f32⟩
  | .hbm, ⟨95, _⟩ => ⟨S1, .f32⟩
  | .hbm, ⟨96, _⟩ => ⟨S_, .f32⟩
  | .hbm, ⟨97, _⟩ => ⟨S1, .f32⟩
  | .hbm, ⟨98, _⟩ => ⟨S1, .f32⟩
  | .hbm, ⟨99, _⟩ => ⟨S1x1, .f32⟩
  | .hbm, ⟨100, _⟩ => ⟨S1x16, .f32⟩
  | .hbm, ⟨101, _⟩ => ⟨S1x16, .f32⟩
  | .hbm, ⟨102, _⟩ => ⟨S1x16, .f32⟩
  | .hbm, ⟨103, _⟩ => ⟨S_, .f32⟩
  | .hbm, ⟨104, _⟩ => ⟨S1, .f32⟩
  | .hbm, ⟨105, _⟩ => ⟨S1x1, .f32⟩
  | .hbm, ⟨106, _⟩ => ⟨S1x1, .f32⟩
  | .hbm, ⟨107, _⟩ => ⟨S1x16, .f32⟩
  | .hbm, ⟨108, _⟩ => ⟨S1x16, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x16, .f32⟩
  | .local _ .vmem, ⟨8, _⟩ => ⟨S2000x16, .f32⟩
  | .local _ .vmem, ⟨9, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_c : Ref sig .tc := ⟨.hbm, 23, rfl⟩
abbrev main_call0_v14 : Ref sig .tc := ⟨.hbm, 24, rfl⟩
abbrev main_call0_v15 : Ref sig .tc := ⟨.hbm, 25, rfl⟩
abbrev main_call0_c_2 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_c_3 : Ref sig .tc := ⟨.hbm, 32, rfl⟩
abbrev main_call0_v21 : Ref sig .tc := ⟨.hbm, 33, rfl⟩
abbrev main_call0_v22 : Ref sig .tc := ⟨.hbm, 34, rfl⟩
abbrev main_call0_c_4 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_c_5 : Ref sig .tc := ⟨.hbm, 43, rfl⟩
abbrev main_call0_v30 : Ref sig .tc := ⟨.hbm, 44, rfl⟩
abbrev main_call0_v31 : Ref sig .tc := ⟨.hbm, 45, rfl⟩
abbrev main_call0_c_6 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_v37 : Ref sig .tc := ⟨.hbm, 52, rfl⟩
abbrev main_call0_v38 : Ref sig .tc := ⟨.hbm, 53, rfl⟩
abbrev main_call0_v39 : Ref sig .tc := ⟨.hbm, 54, rfl⟩
abbrev main_call0_cst_7 : Ref sig .tc := ⟨.hbm, 55, rfl⟩
abbrev main_call0_v40 : Ref sig .tc := ⟨.hbm, 56, rfl⟩
abbrev main_call0_v41 : Ref sig .tc := ⟨.hbm, 57, rfl⟩
abbrev main_call0_v42 : Ref sig .tc := ⟨.hbm, 58, rfl⟩
abbrev main_call0_v43 : Ref sig .tc := ⟨.hbm, 59, rfl⟩
abbrev main_call0_v44 : Ref sig .tc := ⟨.hbm, 60, rfl⟩
abbrev main_call0_v45 : Ref sig .tc := ⟨.hbm, 61, rfl⟩
abbrev main_call0_call0_cst : Ref sig .tc := ⟨.hbm, 62, rfl⟩
abbrev main_call0_call0_v0 : Ref sig .tc := ⟨.hbm, 63, rfl⟩
abbrev main_call0_v46 : Ref sig .tc := ⟨.hbm, 64, rfl⟩
abbrev main_call0_v47 : Ref sig .tc := ⟨.hbm, 65, rfl⟩
abbrev main_call0_c_8 : Ref sig .tc := ⟨.hbm, 66, rfl⟩
abbrev main_call0_v48 : Ref sig .tc := ⟨.hbm, 67, rfl⟩
abbrev main_call0_v49 : Ref sig .tc := ⟨.hbm, 68, rfl⟩
abbrev main_call0_c_9 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_call0_v55 : Ref sig .tc := ⟨.hbm, 75, rfl⟩
abbrev main_call0_v56 : Ref sig .tc := ⟨.hbm, 76, rfl⟩
abbrev main_call0_v57 : Ref sig .tc := ⟨.hbm, 77, rfl⟩
abbrev main_call0_cst_10 : Ref sig .tc := ⟨.hbm, 78, rfl⟩
abbrev main_call0_v58 : Ref sig .tc := ⟨.hbm, 79, rfl⟩
abbrev main_call0_v59 : Ref sig .tc := ⟨.hbm, 80, rfl⟩
abbrev main_call0_v60 : Ref sig .tc := ⟨.hbm, 81, rfl⟩
abbrev main_call0_v61 : Ref sig .tc := ⟨.hbm, 82, rfl⟩
abbrev main_call0_v62 : Ref sig .tc := ⟨.hbm, 83, rfl⟩
abbrev main_call0_v63 : Ref sig .tc := ⟨.hbm, 84, rfl⟩
abbrev main_call0_cst_11 : Ref sig .tc := ⟨.hbm, 85, rfl⟩
abbrev main_call0_v64 : Ref sig .tc := ⟨.hbm, 86, rfl⟩
abbrev main_call0_v65 : Ref sig .tc := ⟨.hbm, 87, rfl⟩
abbrev main_call0_cst_12 : Ref sig .tc := ⟨.hbm, 88, rfl⟩
abbrev main_call0_v66 : Ref sig .tc := ⟨.hbm, 89, rfl⟩
abbrev main_call0_v67 : Ref sig .tc := ⟨.hbm, 90, rfl⟩
abbrev main_call0_call1_cst : Ref sig .tc := ⟨.hbm, 91, rfl⟩
abbrev main_call0_call1_v0 : Ref sig .tc := ⟨.hbm, 92, rfl⟩
abbrev main_call0_v68 : Ref sig .tc := ⟨.hbm, 93, rfl⟩
abbrev main_call0_call2_cst : Ref sig .tc := ⟨.hbm, 94, rfl⟩
abbrev main_call0_call2_v0 : Ref sig .tc := ⟨.hbm, 95, rfl⟩
abbrev main_call0_call2_cst_0 : Ref sig .tc := ⟨.hbm, 96, rfl⟩
abbrev main_call0_call2_v1 : Ref sig .tc := ⟨.hbm, 97, rfl⟩
abbrev main_call0_call2_v2 : Ref sig .tc := ⟨.hbm, 98, rfl⟩
abbrev main_call0_call2_v3 : Ref sig .tc := ⟨.hbm, 99, rfl⟩
abbrev main_call0_call2_v4 : Ref sig .tc := ⟨.hbm, 100, rfl⟩
abbrev main_call0_call2_v5 : Ref sig .tc := ⟨.hbm, 101, rfl⟩
abbrev main_call0_call2_v6 : Ref sig .tc := ⟨.hbm, 102, rfl⟩
abbrev main_call0_call2_cst_1 : Ref sig .tc := ⟨.hbm, 103, rfl⟩
abbrev main_call0_call2_v7 : Ref sig .tc := ⟨.hbm, 104, rfl⟩
abbrev main_call0_call2_v8 : Ref sig .tc := ⟨.hbm, 105, rfl⟩
abbrev main_call0_call2_v9 : Ref sig .tc := ⟨.hbm, 106, rfl⟩
abbrev main_call0_call2_v10 : Ref sig .tc := ⟨.hbm, 107, rfl⟩
abbrev main_v0 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S1x16 : S_.BroadcastsInDim S1x16 (![] : Fin 0 → Fin S1x16.rank)
  reducesTo_S1x16_S1_d1 : S1x16.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S2000x512_S512x64_S2000x64_1_0_0_1_n_n_wf : DotDims.WF S2000x512 S512x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v29) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v46) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v47) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S1 : Shape := ⟨1, ![1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x64, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x16, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000, .f32⟩
  | .hbm, ⟨84, _⟩ => ⟨S1700000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x16, .f32⟩
  | .hbm, ⟨94, _⟩ => ⟨S1700000x1, .f32⟩
  | .hbm, ⟨95, _⟩ => ⟨S1700000x16, .f32⟩
  | .hbm, ⟨96, _⟩ => ⟨S1700000x16, .f32⟩
  | .hbm, ⟨97, _⟩ => ⟨S_, .f32⟩
  | .hbm, ⟨98, _⟩ => ⟨S100000x16, .f32⟩
  | .hbm, ⟨99, _⟩ => ⟨S1700000x1, .i32⟩
  | .hbm, ⟨100, _⟩ => ⟨S100000x16, .f32⟩
  | .hbm, ⟨101, _⟩ => ⟨S1x16, .f32⟩
  | .hbm, ⟨102, _⟩ => ⟨S100000x16, .f32⟩
  | .hbm, ⟨103, _⟩ => ⟨S100000x16, .f32⟩
  | .hbm, ⟨104, _⟩ => ⟨S_, .f32⟩
  | .hbm, ⟨105, _⟩ => ⟨S16, .f32⟩
  | .hbm, ⟨106, _⟩ => ⟨S1x16, .f32⟩
  | .hbm, ⟨107, _⟩ => ⟨S_, .f32⟩
  | .hbm, ⟨108, _⟩ => ⟨S1x16, .f32⟩
  | .hbm, ⟨109, _⟩ => ⟨S1x16, .f32⟩
  | .hbm, ⟨110, _⟩ => ⟨S_, .f32⟩
  | .hbm, ⟨111, _⟩ => ⟨S1x16, .f32⟩
  | .hbm, ⟨112, _⟩ => ⟨S1x16, .f32⟩
  | .hbm, ⟨113, _⟩ => ⟨S_, .f32⟩
  | .hbm, ⟨114, _⟩ => ⟨S1, .f32⟩
  | .hbm, ⟨115, _⟩ => ⟨S_, .f32⟩
  | .hbm, ⟨116, _⟩ => ⟨S1, .f32⟩
  | .hbm, ⟨117, _⟩ => ⟨S1, .f32⟩
  | .hbm, ⟨118, _⟩ => ⟨S1x1, .f32⟩
  | .hbm, ⟨119, _⟩ => ⟨S1x16, .f32⟩
  | .hbm, ⟨120, _⟩ => ⟨S1x16, .f32⟩
  | .hbm, ⟨121, _⟩ => ⟨S1x16, .f32⟩
  | .hbm, ⟨122, _⟩ => ⟨S_, .f32⟩
  | .hbm, ⟨123, _⟩ => ⟨S1, .f32⟩
  | .hbm, ⟨124, _⟩ => ⟨S1x1, .f32⟩
  | .hbm, ⟨125, _⟩ => ⟨S1x1, .f32⟩
  | .hbm, ⟨126, _⟩ => ⟨S1x16, .f32⟩
  | .hbm, ⟨127, _⟩ => ⟨S1x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_call1_cst : Ref sig .tc := ⟨.hbm, 110, rfl⟩
abbrev main_call1_v0 : Ref sig .tc := ⟨.hbm, 111, rfl⟩
abbrev main_v83 : Ref sig .tc := ⟨.hbm, 112, rfl⟩
abbrev main_call2_cst : Ref sig .tc := ⟨.hbm, 113, rfl⟩
abbrev main_call2_v0 : Ref sig .tc := ⟨.hbm, 114, rfl⟩
abbrev main_call2_cst_0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_cst_1 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_v84 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S1x16 : S_.BroadcastsInDim S1x16 (![] : Fin 0 → Fin S1x16.rank)
  reducesTo_S1x16_S1_d1 : S1x16.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  scatter_S100000_S1700000x1_S1700000_n_0_0_1_wf : ScatterDims.WF S100000 S1700000x1 S1700000 [] [0] [0] 1
  dot_S100000x512_S512x64_S100000x64_1_0_0_1_n_n_wf : DotDims.WF S100000x512 S512x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The kernel program's run with its result named.

  The program is three stretches of host operations around two launches of the matrix-product kernel. Running it from any
  memory, every buffer the thread holds outside a kernel's scope ends at the contents the five segments leave in turn: the
  host stretches apply their operations, each launch replaces its output array by what its write-backs leave and keeps every
  other buffer. Here that final valuation is read at the program's result and at its six arguments; the arguments are as
  launched, since no stretch and no launch writes one.
-/
import proofs.«136386_j91036126806369_1_alg».proof.Proof.Gen.KernelIdeal.Frame

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes unfolding
-- plain definitions in a metavariable's type
set_option backward.isDefEq.respectTransparency.types false in
/-- Every weakly fair execution of the program terminates without a fault; the result buffer ends at the last boundary's
    contents there, and every argument as launched. -/
theorem run_named : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Gcn

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.Stretch1.lean ====
/-
  After the first stretch of host operations.

  From the edge list alone the stretch computes the source and destination index vectors (each edge's endpoint, then one
  self-loop per node), the degree of every node by a scatter-add of ones over the destinations, and the symmetric
  normalisation 1/√(max(deg, 1)) gathered at both ends of every edge and multiplied. These are the reference's own
  operations, so the three buffers hold the reference's stages of the same edge list. The stretch writes no argument.
-/
import proofs.«136386_j91036126806369_1_alg».proof.Proof.Gen.KernelIdeal.Frame
import proofs.«136386_j91036126806369_1_alg».proof.Proof.Gen.ReferenceIdeal.Read
import proofs.«136386_j91036126806369_1_alg».proof.Proof.LibTypedRefs
import Idealize.ShloMosaic.Lib.StableHlo.Run

set_option maxRecDepth 16384

noncomputable section

namespace Cert.KernelIdeal.Gcn

open Cert.KernelIdeal Cert.KernelIdeal.Gen
open Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The source vector. -/
theorem src_at1 : W1 m ρ c (Proc.devRef .tc main_call0_v3) = val_main_v3 (F := Ideal) (m ((c : Thread nD τ).loc main_arg1)) := by
  show StableHlo.after hostOps0 (W0 m ρ c) (Proc.devRef .tc main_call0_v3) = _
  after_results_simp
  try simp only [TRef.ofBuf_toBuf]
  rfl

/-- The destination vector. -/
theorem dst_at1 : W1 m ρ c (Proc.devRef .tc main_call0_v6) = val_main_v6 (F := Ideal) (m ((c : Thread nD τ).loc main_arg1)) := by
  show StableHlo.after hostOps0 (W0 m ρ c) (Proc.devRef .tc main_call0_v6) = _
  after_results_simp
  try simp only [TRef.ofBuf_toBuf]
  rfl

set_option maxHeartbeats 2000000 in
/-- The normalisation. -/
theorem norm_at1 : W1 m ρ c (Proc.devRef .tc main_call0_v28) = val_main_v29 (F := Ideal) (m ((c : Thread nD τ).loc main_arg1)) := by
  show StableHlo.after hostOps0 (W0 m ρ c) (Proc.devRef .tc main_call0_v28) = _
  after_results_simp
  try simp only [TRef.ofBuf_toBuf]
  rfl

/-! The arguments are as launched. -/

theorem arg0_at1 : W1 m ρ c (Proc.devRef .tc main_arg0) = (m ((c : Thread nD τ).loc main_arg0)) := by
  show StableHlo.after hostOps0 (W0 m ρ c) (Proc.devRef .tc main_arg0) = _
  after_results_simp

theorem arg2_at1 : W1 m ρ c (Proc.devRef .tc main_arg2) = (m ((c : Thread nD τ).loc main_arg2)) := by
  show StableHlo.after hostOps0 (W0 m ρ c) (Proc.devRef .tc main_arg2) = _
  after_results_simp

theorem arg3_at1 : W1 m ρ c (Proc.devRef .tc main_arg3) = (m ((c : Thread nD τ).loc main_arg3)) := by
  show StableHlo.after hostOps0 (W0 m ρ c) (Proc.devRef .tc main_arg3) = _
  after_results_simp

theorem arg4_at1 : W1 m ρ c (Proc.devRef .tc main_arg4) = (m ((c : Thread nD τ).loc main_arg4)) := by
  show StableHlo.after hostOps0 (W0 m ρ c) (Proc.devRef .tc main_arg4) = _
  after_results_simp

theorem arg5_at1 : W1 m ρ c (Proc.devRef .tc main_arg5) = (m ((c : Thread nD τ).loc main_arg5)) := by
  show StableHlo.after hostOps0 (W0 m ρ c) (Proc.devRef .tc main_arg5) = _
  after_results_simp

end Cert.KernelIdeal.Gcn

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.MatmulEntry.lean ====
/-
  The two kernel bodies, read at an entry.

  Each body rounds its two loaded blocks to bf16 — the identity on the extended reals — and feeds them to the matrix unit
  started from the zero splat. So entry (p, f) of what a body stores is Σ_k a[p, k] · b[k, f] over the block's rows: for the
  first layer a is a [2000, 512] block of the features and b the whole [512, 64] weight, for the second a is a [2000, 64]
  block of the hidden activations (passed through a shape cast to its own shape) and b the whole [64, 16] weight.
-/
import proofs.«136386_j91036126806369_1_alg».proof.Proof.Gen.KernelIdeal.Skeleton
import proofs.«136386_j91036126806369_1_alg».proof.Proof.LibDotInner
import Idealize.ShloMosaic.Lib.Pipeline.Value
import Idealize.ShloMosaic.Lib.ValueIdx

noncomputable section

open scoped BigOperators

namespace Cert.KernelIdeal.Gcn

open Cert.KernelIdeal Cert.KernelIdeal.Gen Idealize.ShloMosaic Idealize.ShloMosaic.ValueIdx

/-! ## Which operand coordinate is which, for the two matrix-unit records -/

theorem mm1_l0 (j : S2000x64.Idx) (q : dot_S2000x512_S512x64_S2000x64_1_0_0_1_n_n.contr.Idx) :
    (dot_S2000x512_S512x64_S2000x64_1_0_0_1_n_n.lhsIdx j q 0).val = (j 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
theorem mm1_l1 (j : S2000x64.Idx) (q : dot_S2000x512_S512x64_S2000x64_1_0_0_1_n_n.contr.Idx) :
    (dot_S2000x512_S512x64_S2000x64_1_0_0_1_n_n.lhsIdx j q 1).val = (q ⟨0, by decide⟩).val :=
  dot_S2000x512_S512x64_S2000x64_1_0_0_1_n_n.lhsIdx_val_of_single rfl j q
theorem mm1_r0 (j : S2000x64.Idx) (q : dot_S2000x512_S512x64_S2000x64_1_0_0_1_n_n.contr.Idx) :
    (dot_S2000x512_S512x64_S2000x64_1_0_0_1_n_n.rhsIdx j q 0).val = (q ⟨0, by decide⟩).val :=
  dot_S2000x512_S512x64_S2000x64_1_0_0_1_n_n.rhsIdx_val_of_single rfl j q
theorem mm1_r1 (j : S2000x64.Idx) (q : dot_S2000x512_S512x64_S2000x64_1_0_0_1_n_n.contr.Idx) :
    (dot_S2000x512_S512x64_S2000x64_1_0_0_1_n_n.rhsIdx j q 1).val = (j 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

theorem mm2_l0 (j : S2000x16.Idx) (q : dot_S2000x64_S64x16_S2000x16_1_0_0_1_n_n.contr.Idx) :
    (dot_S2000x64_S64x16_S2000x16_1_0_0_1_n_n.lhsIdx j q 0).val = (j 0).val := by
  unfold DotDims.lhsIdx
  rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
  rfl
theorem mm2_l1 (j : S2000x16.Idx) (q : dot_S2000x64_S64x16_S2000x16_1_0_0_1_n_n.contr.Idx) :
    (dot_S2000x64_S64x16_S2000x16_1_0_0_1_n_n.lhsIdx j q 1).val = (q ⟨0, by decide⟩).val :=
  dot_S2000x64_S64x16_S2000x16_1_0_0_1_n_n.lhsIdx_val_of_single rfl j q
theorem mm2_r0 (j : S2000x16.Idx) (q : dot_S2000x64_S64x16_S2000x16_1_0_0_1_n_n.contr.Idx) :
    (dot_S2000x64_S64x16_S2000x16_1_0_0_1_n_n.rhsIdx j q 0).val = (q ⟨0, by decide⟩).val :=
  dot_S2000x64_S64x16_S2000x16_1_0_0_1_n_n.rhsIdx_val_of_single rfl j q
theorem mm2_r1 (j : S2000x16.Idx) (q : dot_S2000x64_S64x16_S2000x16_1_0_0_1_n_n.contr.Idx) :
    (dot_S2000x64_S64x16_S2000x16_1_0_0_1_n_n.rhsIdx j q 1).val = (j 1).val := by
  unfold DotDims.rhsIdx
  rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
  rfl

/-! ## The stored values at an entry -/

/-- First layer: entry (p, f) of the stored block is the row p of the feature block against column f of the weight. -/
theorem pay1_entry (a : Vec Ideal S2000x512 .f32) (b : Vec Ideal S512x64 .f32) (p : Fin 2000) (f : Fin 64) :
    k0_pay1 a b (ix2 p f) = ∑ k : Fin 512, a (ix2 p k) * b (ix2 k f) :=
  DotInner.matmul_zero_apply dot_S2000x512_S512x64_S2000x64_1_0_0_1_n_n rfl rfl mm1_l0 mm1_l1 mm1_r0 mm1_r1 none
    (truncf .bf16 a bitsLt_bf16_f32) (truncf .bf16 b bitsLt_bf16_f32) p f

/-- Second layer: the same with the hidden block, whose shape cast to its own shape changes nothing. -/
theorem pay2_entry (a : Vec Ideal S2000x64 .f32) (b : Vec Ideal S64x16 .f32) (p : Fin 2000) (f : Fin 16) :
    k1_pay1 a b (ix2 p f) = ∑ k : Fin 64, a (ix2 p k) * b (ix2 k f) := by
  unfold k1_pay1
  rw [shapeCast_self]
  exact DotInner.matmul_zero_apply dot_S2000x64_S64x16_S2000x16_1_0_0_1_n_n rfl rfl mm2_l0 mm2_l1 mm2_r0 mm2_r1 none
    (truncf .bf16 a bitsLt_bf16_f32) (truncf .bf16 b bitsLt_bf16_f32) p f

end Cert.KernelIdeal.Gcn

end
-- ==== Proof.MatProduct.lean ====
/-
  The product of two matrices as ONE function of the result's index: entry i of x · w is Σ_k x[i₀, k] · w[k, i₁], over the
  extended reals. Both programs' matrix products are shown to be this function of their whole operand arrays.
-/
import Idealize.ShloMosaic.PureOps.Ideal
import Idealize.ShloMosaic.Lib.ValueIdx

noncomputable section

open scoped BigOperators

namespace Cert.Gcn

open Idealize.ShloMosaic Idealize.ShloMosaic.ValueIdx

/-- x · w for x of shape [M, K] and w of shape [K, N]. -/
def rowsTimes {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- At an index given by its two coordinates. -/
theorem rowsTimes_ix2 {M K N : ℕ} (x : (⟨2, ![M, K]⟩ : Shape).Idx → EReal) (w : (⟨2, ![K, N]⟩ : Shape).Idx → EReal)
    (q : Fin M) (f : Fin N) : rowsTimes x w (ix2 q f) = ∑ k : Fin K, x (ix2 q k) * w (ix2 k f) := rfl

end Cert.Gcn

end
-- ==== Proof.Launch0.lean ====
/-
  What the first launch of the matrix-product kernel leaves in its output array, as one function of the arrays it finds.

  The grid has 50 points. Point t fetches rows 2000·t … 2000·t + 1999 of the node features and the whole of the first weight, and writes
  back rows 2000·t … 2000·t + 1999 of the output. Entry (p, f) of the block it stores is Σ_k a[p, k] · b[k, f] over its two
  loaded blocks, which are rows of the arrays; so the block is the matching block of the product of the two whole arrays. The
  50 blocks tile the output's rows (row r lies in block r / 2000), so the output array ends holding that product. Stated at
  any contents V of the buffers when the launch is entered.
-/
import proofs.«136386_j91036126806369_1_alg».proof.Proof.Gen.KernelIdeal.Frame
import proofs.«136386_j91036126806369_1_alg».proof.Proof.MatmulEntry
import proofs.«136386_j91036126806369_1_alg».proof.Proof.MatProduct
import Idealize.ShloMosaic.Lib.Pipeline.Value

noncomputable section

open scoped BigOperators

namespace Cert.KernelIdeal.Gcn.Launch0

open Cert.KernelIdeal Cert.KernelIdeal.Gen Cert.KernelIdeal.Gcn Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block windows sit at block t, the weight's window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of the left operand is rows 2000·t … of its array. -/
theorem rows_block (c : Dev nD) (t : Fin cfg0.N) (p : Fin 2000) (k : Fin 512) (q : Fin 100000) (hq : q.val = t.val * 2000 + p.val) :
    (iblk0 V c 0 t : Vec Ideal S2000x512 .f32) (ix2 p k) = (V c main_arg0 : S100000x512.Idx → EReal) (ix2 q k) := by
  obtain ⟨e0, e1, -⟩ := idx_facts t
  unfold iblk0
  rw [View.read_apply]
  show (V c main_arg0 : S100000x512.Idx → EReal) _ = (V c main_arg0 : S100000x512.Idx → EReal) _
  refine congrArg (V c main_arg0 : S100000x512.Idx → EReal) ?_
  funext a
  apply Fin.ext
  match a with
  | ⟨0, _⟩ => show win0_0.index t (0 : Fin 2) * 2000 + 1 * p.val = q.val; rw [e0, hq]; omega
  | ⟨1, _⟩ => show win0_0.index t (1 : Fin 2) * 512 + 1 * k.val = k.val; rw [e1]; omega

/-- Every point's block of the right operand is its whole array. -/
theorem whole_block (c : Dev nD) (t : Fin cfg0.N) (k : Fin 512) (f : Fin 64) :
    (iblk0 V c 1 t : Vec Ideal S512x64 .f32) (ix2 k f) = (V c main_arg2 : S512x64.Idx → EReal) (ix2 k f) := by
  obtain ⟨-, -, e0, e1, -⟩ := idx_facts t
  unfold iblk0
  rw [View.read_apply]
  show (V c main_arg2 : S512x64.Idx → EReal) _ = (V c main_arg2 : S512x64.Idx → EReal) _
  refine congrArg (V c main_arg2 : S512x64.Idx → EReal) ?_
  funext a
  apply Fin.ext
  match a with
  | ⟨0, _⟩ => show win0_1.index t (0 : Fin 2) * 512 + 1 * k.val = k.val; rw [e0]; omega
  | ⟨1, _⟩ => show win0_1.index t (1 : Fin 2) * 64 + 1 * f.val = f.val; rw [e1]; omega

/-- An entry of a stored block, from blocks that are rows q - p … of x and the whole of w, is the product's entry at row q. -/
theorem block_entry (x : S100000x512.Idx → EReal) (w : S512x64.Idx → EReal) (a : Vec Ideal S2000x512 .f32) (b : Vec Ideal S512x64 .f32)
    (p : Fin 2000) (f : Fin 64) (q : Fin 100000)
    (ha : ∀ k : Fin 512, a (ix2 p k) = x (ix2 q k)) (hb : ∀ k : Fin 512, b (ix2 k f) = w (ix2 k f)) :
    k0_pay1 a b (ix2 p f) = rowsTimes x w (ix2 q f) := by
  rw [pay1_entry, rowsTimes_ix2]
  exact Finset.sum_congr rfl fun k _ => by rw [ha k, hb k]

/-- WHAT POINT t WRITES BACK is block t of the product of the two arrays as the launch finds them. -/
theorem flushed_eq (c : Dev nD) (t : Fin cfg0.N) :
    (dat0 (F := Ideal) V c).flushed 2 t
      = ((cfg0.win 2).blk t).view.read (Elt Ideal) (rowsTimes (V c main_arg0 : S100000x512.Idx → EReal) (V c main_arg2 : S512x64.Idx → EReal)) := by
  show (cfg0.win 2).cut (grid0.coords t) ((dat0 (F := Ideal) V c).after 2 t) = _
  rw [after0_2]
  unfold out0_2
  rw [View.canon_unit_zero hz]
  simp only [View.ld_unit_zero (S := S2000x512) hz, View.ld_unit_zero (S := S512x64) hz]
  obtain ⟨-, -, -, -, e0, e1⟩ := idx_facts t
  refine funext fun (j : S2000x64.Idx) => ?_
  have hj0 : (j 0).val < 2000 := (j 0).isLt
  have hN : t.val < 50 := Nat.lt_of_lt_of_eq t.isLt N_0
  have hq : t.val * 2000 + (j 0).val < 100000 := by omega
  have he : ((cfg0.win 2).blk t).view.emb j = ix2 (⟨t.val * 2000 + (j 0).val, hq⟩ : Fin 100000) (j 1) := by
    funext a
    apply Fin.ext
    match a with
    | ⟨0, _⟩ => show win0_2.index t (0 : Fin 2) * 2000 + 1 * (j 0).val = t.val * 2000 + (j 0).val; rw [e0]; omega
    | ⟨1, _⟩ => show win0_2.index t (1 : Fin 2) * 64 + 1 * (j 1).val = (j 1).val; rw [e1]; omega
  show k0_pay1 (iblk0 V c 0 t) (iblk0 V c 1 t) j
      = rowsTimes (V c main_arg0 : S100000x512.Idx → EReal) (V c main_arg2 : S512x64.Idx → EReal) (((cfg0.win 2).blk t).view.emb j)
  rw [he]
  refine (congrArg (k0_pay1 (iblk0 V c 0 t) (iblk0 V c 1 t)) (eq_ix2 j)).trans ?_
  exact block_entry (V c main_arg0 : S100000x512.Idx → EReal) (V c main_arg2 : S512x64.Idx → EReal) (iblk0 V c 0 t) (iblk0 V c 1 t) (j 0) (j 1)
    ⟨t.val * 2000 + (j 0).val, hq⟩ (fun k => rows_block V c t (j 0) k ⟨t.val * 2000 + (j 0).val, hq⟩ rfl) (fun k => whole_block V c t k (j 1))

/-- An index of the output array is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_call0_v29).slice (win0_2.rect t)).set ↔ _
  rw [View.set_slice_whole, Rect.mem_set_unit]
  exact Iff.rfl

/-- Row r of the output lies in the block of point r / 2000, which writes back: the blocks cover the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, e0, e1⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 64 ≤ (i 1).val ∧ (i 1).val < win0_2.index t (1 : Fin 2) * 64 + 64; rw [e1]; omega

/-- THE OUTPUT ARRAY after the launch: the product of the two arrays the launch found. -/
theorem array_eq (c : Dev nD) :
    (dat0 (F := Ideal) V c).arrAt 2 cfg0.N = rowsTimes (V c main_arg0 : S100000x512.Idx → EReal) (V c main_arg2 : S512x64.Idx → EReal) :=
  (dat0 (F := Ideal) V c).arrAt_eq_of_cover 2 _ (fun t _ => flushed_eq V c t) cover

end Cert.KernelIdeal.Gcn.Launch0

end
-- ==== Proof.HostDot.lean ====
/-
  The reference's two matrix products as the product function of their whole operands.

  At the extended reals the host's dot_general of a [M, K] array with a [K, N] array, contracting the shared axis, has at
  index i the entry Σ_k l[i₀, k] · r[k, i₁]: the generated reading of the stage gives the sum over the operand indices, and
  those are (i₀, k) and (k, i₁).
-/
import proofs.«136386_j91036126806369_1_alg».proof.Proof.Gen.ReferenceIdeal.Read
import proofs.«136386_j91036126806369_1_alg».proof.Proof.MatProduct

noncomputable section

open scoped BigOperators

namespace Cert.ReferenceIdeal.Gcn

open Cert.ReferenceIdeal Cert.ReferenceIdeal.Read Cert.Gcn
open Idealize.ShloMosaic Idealize.ShloMosaic.ValueIdx

/-- The first layer's x · W₁. -/
theorem layer1_product (x0 : (⟨S100000x512, .f32⟩ : BufTy).Contents (Elt Ideal)) (x2 : (⟨S512x64, .f32⟩ : BufTy).Contents (Elt Ideal)) :
    val_main_v14 (F := Ideal) x0 x2 = rowsTimes (M := 100000) (K := 512) (N := 64) x0 x2 := by
  funext i
  rw [val_main_v14_apply]
  unfold rowsTimes
  refine Finset.sum_congr rfl fun k _ => ?_
  have el : lidx_main_v14 i k = ix2 (i 0) k := funext fun a => Fin.ext (by match a with | ⟨0, _⟩ => rfl | ⟨1, _⟩ => rfl)
  have er : ridx_main_v14 i k = ix2 k (i 1) := funext fun a => Fin.ext (by match a with | ⟨0, _⟩ => rfl | ⟨1, _⟩ => rfl)
  rw [el, er]
  rfl

/-- The second layer's h · W₂, h the hidden activations. -/
theorem layer2_product (x0 : (⟨S100000x512, .f32⟩ : BufTy).Contents (Elt Ideal)) (x1 : (⟨S2x1600000, .i32⟩ : BufTy).Contents (Elt Ideal))
    (x2 : (⟨S512x64, .f32⟩ : BufTy).Contents (Elt Ideal)) (x3 : (⟨S64, .f32⟩ : BufTy).Contents (Elt Ideal))
    (x4 : (⟨S64x16, .f32⟩ : BufTy).Contents (Elt Ideal)) :
    val_main_v47 (F := Ideal) x0 x1 x2 x3 x4
      = rowsTimes (M := 100000) (K := 64) (N := 16) (val_main_v46 (F := Ideal) x0 x1 x2 x3) x4 := by
  funext i
  rw [val_main_v47_apply]
  unfold rowsTimes
  refine Finset.sum_congr rfl fun k _ => ?_
  have el : lidx_main_v47 i k = ix2 (i 0) k := funext fun a => Fin.ext (by match a with | ⟨0, _⟩ => rfl | ⟨1, _⟩ => rfl)
  have er : ridx_main_v47 i k = ix2 k (i 1) := funext fun a => Fin.ext (by match a with | ⟨0, _⟩ => rfl | ⟨1, _⟩ => rfl)
  rw [el, er]
  rfl

end Cert.ReferenceIdeal.Gcn

end
-- ==== Proof.Hidden.lean ====
/-
  Through the first launch and the middle stretch: the hidden activations.

  The first launch leaves x · W₁ in its output array, and the reference's first dot_general is that product; every other
  buffer is as the launch found it. The middle stretch gathers the product's rows at the sources, scales them by the
  normalisation, scatter-adds them at the destinations, adds the first bias and clamps at zero: the reference's operations on
  equal values, so the hidden activations are the reference's. The stretch leaves the index vectors, the normalisation and
  the remaining arguments alone.
-/
import proofs.«136386_j91036126806369_1_alg».proof.Proof.Stretch1
import proofs.«136386_j91036126806369_1_alg».proof.Proof.Launch0
import proofs.«136386_j91036126806369_1_alg».proof.Proof.HostDot

set_option maxRecDepth 16384

noncomputable section

namespace Cert.KernelIdeal.Gcn

open Cert.KernelIdeal Cert.KernelIdeal.Gen Cert.Gcn
open Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first launch -/

/-- Its output array: x · W₁. -/
theorem product1_at2 : W2 m ρ c (Proc.devRef .tc main_call0_v29) = val_main_v14 (F := Ideal) (m ((c : Thread nD τ).loc main_arg0)) (m ((c : Thread nD τ).loc main_arg2)) := by
  refine (W2_arr m ρ c 2).trans ((Launch0.array_eq (V1 m ρ) c).trans ?_)
  rw [Cert.ReferenceIdeal.Gcn.layer1_product]
  show rowsTimes (W1 m ρ c (Proc.devRef .tc main_arg0)) (W1 m ρ c (Proc.devRef .tc main_arg2)) = _
  rw [arg0_at1, arg2_at1]

theorem src_at2 : W2 m ρ c (Proc.devRef .tc main_call0_v3) = val_main_v3 (F := Ideal) (m ((c : Thread nD τ).loc main_arg1)) :=
  (W2_of_ne m ρ c main_call0_v3 (by decide)).trans (src_at1 m ρ c)
theorem dst_at2 : W2 m ρ c (Proc.devRef .tc main_call0_v6) = val_main_v6 (F := Ideal) (m ((c : Thread nD τ).loc main_arg1)) :=
  (W2_of_ne m ρ c main_call0_v6 (by decide)).trans (dst_at1 m ρ c)
theorem norm_at2 : W2 m ρ c (Proc.devRef .tc main_call0_v28) = val_main_v29 (F := Ideal) (m ((c : Thread nD τ).loc main_arg1)) :=
  (W2_of_ne m ρ c main_call0_v28 (by decide)).trans (norm_at1 m ρ c)
theorem arg3_at2 : W2 m ρ c (Proc.devRef .tc main_arg3) = (m ((c : Thread nD τ).loc main_arg3)) :=
  (W2_of_ne m ρ c main_arg3 (by decide)).trans (arg3_at1 m ρ c)
theorem arg4_at2 : W2 m ρ c (Proc.devRef .tc main_arg4) = (m ((c : Thread nD τ).loc main_arg4)) :=
  (W2_of_ne m ρ c main_arg4 (by decide)).trans (arg4_at1 m ρ c)
theorem arg5_at2 : W2 m ρ c (Proc.devRef .tc main_arg5) = (m ((c : Thread nD τ).loc main_arg5)) :=
  (W2_of_ne m ρ c main_arg5 (by decide)).trans (arg5_at1 m ρ c)

/-! ## After the middle stretch -/

set_option maxHeartbeats 2000000 in
/-- The hidden activations. -/
theorem hidden_at3 : W3 m ρ c (Proc.devRef .tc main_call0_v46)
    = val_main_v46 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_call0_v46) = _
  after_results_simp
  try simp only [TRef.ofBuf_toBuf]
  rw [product1_at2, src_at2, dst_at2, norm_at2, arg3_at2]
  rfl

theorem src_at3 : W3 m ρ c (Proc.devRef .tc main_call0_v3) = val_main_v3 (F := Ideal) (m ((c : Thread nD τ).loc main_arg1)) := by
  refine Eq.trans ?_ (src_at2 m ρ c)
  show StableHlo.after hostOps1 (W2 m ρ c) (Proc.devRef .tc main_call0_v3) = _
  after_results_simp
theorem dst_at3 : W3 m ρ c (Proc.devRef .tc main_call0_v6) = val_main_v6 (F := Ideal) (m ((c : Thread nD τ).loc main_arg1)) := by
  refine Eq.trans ?_ (dst_at2 m ρ c)
  show StableHlo.after hostOps1 (W2 m ρ c) (Proc.devRef .tc main_call0_v6) = _
  after_results_simp
theorem norm_at3 : W3 m ρ c (Proc.devRef .tc main_call0_v28) = val_main_v29 (F := Ideal) (m ((c : Thread nD τ).loc main_arg1)) := by
  refine Eq.trans ?_ (norm_at2 m ρ c)
  show StableHlo.after hostOps1 (W2 m ρ c) (Proc.devRef .tc main_call0_v28) = _
  after_results_simp
theorem arg4_at3 : W3 m ρ c (Proc.devRef .tc main_arg4) = (m ((c : Thread nD τ).loc main_arg4)) := by
  refine Eq.trans ?_ (arg4_at2 m ρ c)
  show StableHlo.after hostOps1 (W2 m ρ c) (Proc.devRef .tc main_arg4) = _
  after_results_simp
theorem arg5_at3 : W3 m ρ c (Proc.devRef .tc main_arg5) = (m ((c : Thread nD τ).loc main_arg5)) := by
  refine Eq.trans ?_ (arg5_at2 m ρ c)
  show StableHlo.after hostOps1 (W2 m ρ c) (Proc.devRef .tc main_arg5) = _
  after_results_simp

end Cert.KernelIdeal.Gcn

end
-- ==== Proof.Launch1.lean ====
/-
  What the second launch of the matrix-product kernel leaves in its output array, as one function of the arrays it finds.

  The grid has 50 points. Point t fetches rows 2000·t … 2000·t + 1999 of the hidden activations and the whole of the second weight, and writes
  back rows 2000·t … 2000·t + 1999 of the output. Entry (p, f) of the block it stores is Σ_k a[p, k] · b[k, f] over its two
  loaded blocks, which are rows of the arrays; so the block is the matching block of the product of the two whole arrays. The
  50 blocks tile the output's rows (row r lies in block r / 2000), so the output array ends holding that product. Stated at
  any contents V of the buffers when the launch is entered.
-/
import proofs.«136386_j91036126806369_1_alg».proof.Proof.Gen.KernelIdeal.Frame
import proofs.«136386_j91036126806369_1_alg».proof.Proof.MatmulEntry
import proofs.«136386_j91036126806369_1_alg».proof.Proof.MatProduct
import Idealize.ShloMosaic.Lib.Pipeline.Value

noncomputable section

open scoped BigOperators

namespace Cert.KernelIdeal.Gcn.Launch1

open Cert.KernelIdeal Cert.KernelIdeal.Gen Cert.KernelIdeal.Gcn Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block windows sit at block t, the weight's window at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point t's block of the left operand is rows 2000·t … of its array. -/
theorem rows_block (c : Dev nD) (t : Fin cfg1.N) (p : Fin 2000) (k : Fin 64) (q : Fin 100000) (hq : q.val = t.val * 2000 + p.val) :
    (iblk1 V c 0 t : Vec Ideal S2000x64 .f32) (ix2 p k) = (V c main_call0_v46 : S100000x64.Idx → EReal) (ix2 q k) := by
  obtain ⟨e0, e1, -⟩ := idx_facts t
  unfold iblk1
  rw [View.read_apply]
  show (V c main_call0_v46 : S100000x64.Idx → EReal) _ = (V c main_call0_v46 : S100000x64.Idx → EReal) _
  refine congrArg (V c main_call0_v46 : S100000x64.Idx → EReal) ?_
  funext a
  apply Fin.ext
  match a with
  | ⟨0, _⟩ => show win1_0.index t (0 : Fin 2) * 2000 + 1 * p.val = q.val; rw [e0, hq]; omega
  | ⟨1, _⟩ => show win1_0.index t (1 : Fin 2) * 64 + 1 * k.val = k.val; rw [e1]; omega

/-- Every point's block of the right operand is its whole array. -/
theorem whole_block (c : Dev nD) (t : Fin cfg1.N) (k : Fin 64) (f : Fin 16) :
    (iblk1 V c 1 t : Vec Ideal S64x16 .f32) (ix2 k f) = (V c main_arg4 : S64x16.Idx → EReal) (ix2 k f) := by
  obtain ⟨-, -, e0, e1, -⟩ := idx_facts t
  unfold iblk1
  rw [View.read_apply]
  show (V c main_arg4 : S64x16.Idx → EReal) _ = (V c main_arg4 : S64x16.Idx → EReal) _
  refine congrArg (V c main_arg4 : S64x16.Idx → EReal) ?_
  funext a
  apply Fin.ext
  match a with
  | ⟨0, _⟩ => show win1_1.index t (0 : Fin 2) * 64 + 1 * k.val = k.val; rw [e0]; omega
  | ⟨1, _⟩ => show win1_1.index t (1 : Fin 2) * 16 + 1 * f.val = f.val; rw [e1]; omega

/-- An entry of a stored block, from blocks that are rows q - p … of x and the whole of w, is the product's entry at row q. -/
theorem block_entry (x : S100000x64.Idx → EReal) (w : S64x16.Idx → EReal) (a : Vec Ideal S2000x64 .f32) (b : Vec Ideal S64x16 .f32)
    (p : Fin 2000) (f : Fin 16) (q : Fin 100000)
    (ha : ∀ k : Fin 64, a (ix2 p k) = x (ix2 q k)) (hb : ∀ k : Fin 64, b (ix2 k f) = w (ix2 k f)) :
    k1_pay1 a b (ix2 p f) = rowsTimes x w (ix2 q f) := by
  rw [pay2_entry, rowsTimes_ix2]
  exact Finset.sum_congr rfl fun k _ => by rw [ha k, hb k]

/-- WHAT POINT t WRITES BACK is block t of the product of the two arrays as the launch finds them. -/
theorem flushed_eq (c : Dev nD) (t : Fin cfg1.N) :
    (dat1 (F := Ideal) V c).flushed 2 t
      = ((cfg1.win 2).blk t).view.read (Elt Ideal) (rowsTimes (V c main_call0_v46 : S100000x64.Idx → EReal) (V c main_arg4 : S64x16.Idx → EReal)) := by
  show (cfg1.win 2).cut (grid1.coords t) ((dat1 (F := Ideal) V c).after 2 t) = _
  rw [after1_2]
  unfold out1_2
  rw [View.canon_unit_zero hz]
  simp only [View.ld_unit_zero (S := S2000x64) hz, View.ld_unit_zero (S := S64x16) hz]
  obtain ⟨-, -, -, -, e0, e1⟩ := idx_facts t
  refine funext fun (j : S2000x16.Idx) => ?_
  have hj0 : (j 0).val < 2000 := (j 0).isLt
  have hN : t.val < 50 := Nat.lt_of_lt_of_eq t.isLt N_1
  have hq : t.val * 2000 + (j 0).val < 100000 := by omega
  have he : ((cfg1.win 2).blk t).view.emb j = ix2 (⟨t.val * 2000 + (j 0).val, hq⟩ : Fin 100000) (j 1) := by
    funext a
    apply Fin.ext
    match a with
    | ⟨0, _⟩ => show win1_2.index t (0 : Fin 2) * 2000 + 1 * (j 0).val = t.val * 2000 + (j 0).val; rw [e0]; omega
    | ⟨1, _⟩ => show win1_2.index t (1 : Fin 2) * 16 + 1 * (j 1).val = (j 1).val; rw [e1]; omega
  show k1_pay1 (iblk1 V c 0 t) (iblk1 V c 1 t) j
      = rowsTimes (V c main_call0_v46 : S100000x64.Idx → EReal) (V c main_arg4 : S64x16.Idx → EReal) (((cfg1.win 2).blk t).view.emb j)
  rw [he]
  refine (congrArg (k1_pay1 (iblk1 V c 0 t) (iblk1 V c 1 t)) (eq_ix2 j)).trans ?_
  exact block_entry (V c main_call0_v46 : S100000x64.Idx → EReal) (V c main_arg4 : S64x16.Idx → EReal) (iblk1 V c 0 t) (iblk1 V c 1 t) (j 0) (j 1)
    ⟨t.val * 2000 + (j 0).val, hq⟩ (fun k => rows_block V c t (j 0) k ⟨t.val * 2000 + (j 0).val, hq⟩ rfl) (fun k => whole_block V c t k (j 1))

/-- An index of the output array is in point t's block iff each coordinate is in the block's range on its axis. -/
theorem mem_blk (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_call0_v47).slice (win1_2.rect t)).set ↔ _
  rw [View.set_slice_whole, Rect.mem_set_unit]
  exact Iff.rfl

/-- Row r of the output lies in the block of point r / 2000, which writes back: the blocks cover the array. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, e0, e1⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 16 ≤ (i 1).val ∧ (i 1).val < win1_2.index t (1 : Fin 2) * 16 + 16; rw [e1]; omega

/-- THE OUTPUT ARRAY after the launch: the product of the two arrays the launch found. -/
theorem array_eq (c : Dev nD) :
    (dat1 (F := Ideal) V c).arrAt 2 cfg1.N = rowsTimes (V c main_call0_v46 : S100000x64.Idx → EReal) (V c main_arg4 : S64x16.Idx → EReal) :=
  (dat1 (F := Ideal) V c).arrAt_eq_of_cover 2 _ (fun t _ => flushed_eq V c t) cover

end Cert.KernelIdeal.Gcn.Launch1

end
-- ==== Proof.Result.lean ====
/-
  Through the second launch and the last stretch: the result.

  The second launch leaves h · W₂ in its output array, h the hidden activations, and the reference's second dot_general is
  that product. The last stretch aggregates as the middle one did, adds the second bias, averages over the 100000 nodes,
  clamps at zero and takes the log-softmax over the 16 classes: the reference's tail. The reference recomputes the
  normalisation for this layer where the kernel program reuses the first layer's; both are the same operations of the same
  edge list, so the two terms are one.
-/
import proofs.«136386_j91036126806369_1_alg».proof.Proof.Hidden
import proofs.«136386_j91036126806369_1_alg».proof.Proof.Launch1

set_option maxRecDepth 16384

noncomputable section

namespace Cert.KernelIdeal.Gcn

open Cert.KernelIdeal Cert.KernelIdeal.Gen Cert.Gcn
open Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the second launch -/

/-- Its output array: h · W₂. -/
theorem product2_at4 : W4 m ρ c (Proc.devRef .tc main_call0_v47)
    = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 2).trans ((Launch1.array_eq (V3 m ρ) c).trans ?_)
  rw [Cert.ReferenceIdeal.Gcn.layer2_product]
  show rowsTimes (W3 m ρ c (Proc.devRef .tc main_call0_v46)) (W3 m ρ c (Proc.devRef .tc main_arg4)) = _
  rw [hidden_at3, arg4_at3]

theorem src_at4 : W4 m ρ c (Proc.devRef .tc main_call0_v3) = val_main_v3 (F := Ideal) (m ((c : Thread nD τ).loc main_arg1)) :=
  (W4_of_ne m ρ c main_call0_v3 (by decide)).trans (src_at3 m ρ c)
theorem dst_at4 : W4 m ρ c (Proc.devRef .tc main_call0_v6) = val_main_v6 (F := Ideal) (m ((c : Thread nD τ).loc main_arg1)) :=
  (W4_of_ne m ρ c main_call0_v6 (by decide)).trans (dst_at3 m ρ c)
theorem norm_at4 : W4 m ρ c (Proc.devRef .tc main_call0_v28) = val_main_v29 (F := Ideal) (m ((c : Thread nD τ).loc main_arg1)) :=
  (W4_of_ne m ρ c main_call0_v28 (by decide)).trans (norm_at3 m ρ c)
theorem arg5_at4 : W4 m ρ c (Proc.devRef .tc main_arg5) = (m ((c : Thread nD τ).loc main_arg5)) :=
  (W4_of_ne m ρ c main_arg5 (by decide)).trans (arg5_at3 m ρ c)

/-! ## After the last stretch -/

set_option maxHeartbeats 4000000 in
/-- The result buffer ends at the reference's function of the six arguments. -/
theorem result_at5 : W5 m ρ c (Proc.devRef .tc main_v0)
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v0) = _
  after_results_simp
  try simp only [TRef.ofBuf_toBuf]
  rw [product2_at4, src_at4, dst_at4, norm_at4, arg5_at4]
  rfl

end Cert.KernelIdeal.Gcn

end
-- ==== Proof.lean ====
/-
  A two-layer graph convolution, its two dense products on the matrix unit, against the same network in plain array code.

  Both programs build, from the edge list, the source and destination vectors (every edge, then a self-loop per node), the
  degrees by a scatter-add of ones, and the normalisation 1/√(max(deg, 1)) gathered at both ends of each edge. A layer is
  h ↦ scatter-add over destinations of (h · W)[src] · norm, plus a bias; the first layer is clamped at zero, the second is
  averaged over the nodes, clamped, and passed through a log-softmax. The kernel program differs in two places only: each
  product h · W is a launch of a kernel that rounds its operands to bf16 and multiplies 2000-row blocks on the matrix unit,
  and the normalisation is computed once and used by both layers.

  Over the extended reals rounding is the identity and the matrix unit's sum from zero is the host's dot_general, so each
  launch leaves exactly the product of the arrays it finds (Proof/Launch0.lean, Proof/Launch1.lean, over Proof/MatmulEntry.lean);
  every other operation is the reference's own, applied to equal values (Proof/Stretch1.lean, Proof/Hidden.lean, Proof/Result.lean). No law used needs the inputs
  finite, so the precondition is never opened. The kernel program's run with its result named is Proof/KernelRun.lean; the
  reference's run and its stage-by-stage reading are the generated modules Gen/ReferenceIdeal/Run.lean and Read.lean.
-/
import proofs.«136386_j91036126806369_1_alg».proof.Defs
import proofs.«136386_j91036126806369_1_alg».proof.Proof.Gen.Kernel
import proofs.«136386_j91036126806369_1_alg».proof.Proof.Gen.Kernel.Frame
import proofs.«136386_j91036126806369_1_alg».proof.Proof.Gen.KernelIdeal
import proofs.«136386_j91036126806369_1_alg».proof.Proof.Gen.KernelIdeal.Frame
import proofs.«136386_j91036126806369_1_alg».proof.Proof.Gen.ReferenceIdeal
import proofs.«136386_j91036126806369_1_alg».proof.Proof.Gen.Pre_finite_inputs
import proofs.«136386_j91036126806369_1_alg».proof.Proof.Gen.ReferenceIdeal.Run
import proofs.«136386_j91036126806369_1_alg».proof.Proof.Gen.ReferenceIdeal.Read
import proofs.«136386_j91036126806369_1_alg».proof.Proof.KernelRun
import proofs.«136386_j91036126806369_1_alg».proof.Proof.Result

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the reference's function of those arguments in
    their result buffers. -/
theorem algebraic : Cert.algebraic_KernelIdeal_ReferenceIdeal := by
  intro m ρ m' ρ' _ hagree
  refine ⟨fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Gcn.result_at5 m ρ c), (h c).2⟩)
      (Cert.KernelIdeal.Gcn.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v84_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
